-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x5 : Shape := ⟨2, ![2097152, 5]⟩
abbrev S32x5 : Shape := ⟨2, ![32, 5]⟩
abbrev S32x32 : Shape := ⟨2, ![32, 32]⟩
abbrev S16x32 : Shape := ⟨2, ![16, 32]⟩
abbrev S10x16 : Shape := ⟨2, ![10, 16]⟩
abbrev S_ : Shape := ⟨0, ![]⟩

class Facts : Prop where
  bcast_S_S2097152x5 : S_.BroadcastsInDim S2097152x5 (![] : Fin 0 → Fin S2097152x5.rank)
  reducesTo_S2097152x5_S_d0_1 : S2097152x5.ReducesTo [0, 1] S_
  h_S_ : 0 < S_.numel
  bcast_S_S32x5 : S_.BroadcastsInDim S32x5 (![] : Fin 0 → Fin S32x5.rank)
  reducesTo_S32x5_S_d0_1 : S32x5.ReducesTo [0, 1] S_
  bcast_S_S32x32 : S_.BroadcastsInDim S32x32 (![] : Fin 0 → Fin S32x32.rank)
  reducesTo_S32x32_S_d0_1 : S32x32.ReducesTo [0, 1] S_
  bcast_S_S16x32 : S_.BroadcastsInDim S16x32 (![] : Fin 0 → Fin S16x32.rank)
  reducesTo_S16x32_S_d0_1 : S16x32.ReducesTo [0, 1] S_
  bcast_S_S10x16 : S_.BroadcastsInDim S10x16 (![] : Fin 0 → Fin S10x16.rank)
  reducesTo_S10x16_S_d0_1 : S10x16.ReducesTo [0, 1] S_

variable [Facts]

def fn_part1 {F : FTy → Type} [FloatOps F] (main_arg4 : FVec F S10x16 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S10x16 .f32 := Host.absf main_arg4
  let main_cst_6 : FVec F S_ .f32 := constant S_ .f32 0x7F800000#32
  let main_v20 : FVec F S10x16 .f32 := broadcastInDim S10x16 ![] bcast_S_S10x16 main_cst_6
  let main_v21 : IVec S10x16 1 := cmpf .olt main_v19 main_v20
  let main_c_7 : IVec S_ 1 := constantI S_ 1 1#1
  let main_v22 : IVec S_ 1 := (fun x v => Host.reduce IntOp.andi x v reducesTo_S10x16_S_d0_1 h_S_) main_v21 main_c_7
  let main_v23 : IVec S_ 1 := andi main_v18 main_v22
  main_v23

def fn {F : FTy → Type} [FloatOps F] (main_arg0 : FVec F S2097152x5 .f32) (main_arg1 : FVec F S32x5 .f32) (main_arg2 : FVec F S32x32 .f32) (main_arg3 : FVec F S16x32 .f32) (main_arg4 : FVec F S10x16 .f32) : IVec S_ 1 :=
  let main_v0 : FVec F S2097152x5 .f32 := Host.absf main_arg0
  let main_cst : FVec F S_ .f32 := constant S_ .f32 0x7F800000#32
  let main_v1 : FVec F S2097152x5 .f32 := broadcastInDim S2097152x5 ![] bcast_S_S2097152x5 main_cst
  let main_v2 : IVec S2097152x5 1 := cmpf .olt main_v0 main_v1
  let main_c : IVec S_ 1 := constantI S_ 1 1#1
  let main_v3 : IVec S_ 1 := (fun x v => Host.reduce IntOp.andi x v reducesTo_S2097152x5_S_d0_1 h_S_) main_v2 main_c
  let main_v4 : FVec F S32x5 .f32 := Host.absf main_arg1
  let main_cst_0 : FVec F S_ .f32 := constant S_ .f32 0x7F800000#32
  let main_v5 : FVec F S32x5 .f32 := broadcastInDim S32x5 ![] bcast_S_S32x5 main_cst_0
  let main_v6 : IVec S32x5 1 := cmpf .olt main_v4 main_v5
  let main_c_1 : IVec S_ 1 := constantI S_ 1 1#1
  let main_v7 : IVec S_ 1 := (fun x v => Host.reduce IntOp.andi x v reducesTo_S32x5_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S16x32 .f32 := Host.absf main_arg3
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg4 main_v13 main_v16
-- ==== Kernel.lean ====
abbrev S2097152x5 : Shape := ⟨2, ![2097152, 5]⟩
abbrev S32x5 : Shape := ⟨2, ![32, 5]⟩
abbrev S32x32 : Shape := ⟨2, ![32, 32]⟩
abbrev S16x32 : Shape := ⟨2, ![16, 32]⟩
abbrev S10x16 : Shape := ⟨2, ![10, 16]⟩
abbrev S2097152x10 : Shape := ⟨2, ![2097152, 10]⟩
abbrev S8192x5 : Shape := ⟨2, ![8192, 5]⟩
abbrev S8192x10 : Shape := ⟨2, ![8192, 10]⟩
abbrev S8192x32 : Shape := ⟨2, ![8192, 32]⟩
abbrev S8192x16 : Shape := ⟨2, ![8192, 16]⟩

abbrev nBuf : Space → Nat
  | .hbm => 6
  | .vmem => 8
  | .smem => 0
  | _ => 0

abbrev bufTy : (tb : Table) → Fin (tcTables nBuf tb) → BufTy
  | .hbm, ⟨0, _⟩ => ⟨S2097152x5, .f32⟩
  | .hbm, ⟨1, _⟩ => ⟨S32x5, .f32⟩
  | .hbm, ⟨2, _⟩ => ⟨S32x32, .f32⟩
  | .hbm, ⟨3, _⟩ => ⟨S16x32, .f32⟩
  | .hbm, ⟨4, _⟩ => ⟨S10x16, .f32⟩
  | .hbm, ⟨5, _⟩ => ⟨S2097152x10, .f32⟩
  | .local _ .vmem, ⟨0, _⟩ => ⟨S8192x5, .f32⟩
  | .local _ .vmem, ⟨1, _⟩ => ⟨S8192x5, .f32⟩
  | .local _ .vmem, ⟨2, _⟩ => ⟨S32x5, .f32⟩
  | .local _ .vmem, ⟨3, _⟩ => ⟨S32x32, .f32⟩
  | .local _ .vmem, ⟨4, _⟩ => ⟨S16x32, .f32⟩
  | .local _ .vmem, ⟨5, _⟩ => ⟨S10x16, .f32⟩
  | .local _ .vmem, ⟨6, _⟩ => ⟨S8192x10, .f32⟩
  | .local _ .vmem, ⟨7, _⟩ => ⟨S8192x10, .f32⟩
  | _, _ => ⟨S2097152x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8192x5_S8192x5_0_0 : ∀ a, (![0, 0] : Fin 2 → Nat) a + S8192x5.size a ≤ S8192x5.size a
  h_S8192x5 : 0 < S8192x5.numel
  inb_S32x5_S32x5_0_0 : ∀ a, (![0, 0] : Fin 2 → Nat) a + S32x5.size a ≤ S32x5.size a
  h_S32x5 : 0 < S32x5.numel
  inb_S32x32_S32x32_0_0 : ∀ a, (![0, 0] : Fin 2 → Nat) a + S32x32.size a ≤ S32x32.size a
  h_S32x32 : 0 < S32x32.numel
  inb_S16x32_S16x32_0_0 : ∀ a, (![0, 0] : Fin 2 → Nat) a + S16x32.size a ≤ S16x32.size a
  h_S16x32 : 0 < S16x32.numel
  inb_S10x16_S10x16_0_0 : ∀ a, (![0, 0] : Fin 2 → Nat) a + S10x16.size a ≤ S10x16.size a
  h_S10x16 : 0 < S10x16.numel
  natLt_1_32 : 1 < 32
  inb_S8192x10_S8192x10_0_0 : ∀ a, (![0, 0] : Fin 2 → Nat) a + S8192x10.size a ≤ S8192x10.size a
  h_S8192x10 : 0 < S8192x10.numel
  dot_S8192x5_S32x5_S8192x32_1_1_0_0_n_n_wf : DotDims.WF S8192x5 S32x5 S8192x32 [1] [1] [0] [0] [] []
  dot_S8192x32_S32x32_S8192x32_1_1_0_0_n_n_wf : DotDims.WF S8192x32 S32x32 S8192x32 [1] [1] [0] [0] [] []
  dot_S8192x32_S16x32_S8192x16_1_1_0_0_n_n_wf : DotDims.WF S8192x32 S16x32 S8192x16 [1] [1] [0] [0] [] []
  dot_S8192x16_S10x16_S8192x10_1_1_0_0_n_n_wf : DotDims.WF S8192x16 S10x16 S8192x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x5.size a ≤ S2097152x5.size a
  hwx0_0 : ∀ i : grid0.Coords, EltTy.bits .f32 = 32 ∨ (Rect.block (s := S2097152x5) S8192x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x5.size a ≤ S32x5.size a
  hwx0_1 : ∀ i : grid0.Coords, EltTy.bits .f32 = 32 ∨ (Rect.block (s := S32x5) S32x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x16.size a ≤ S10x16.size a
  hwx0_4 : ∀ i : grid0.Coords, EltTy.bits .f32 = 32 ∨ (Rect.block (s := S10x16) S10x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x10.size a ≤ S2097152x10.size a
  hwx0_5 : ∀ i : grid0.Coords, EltTy.bits .f32 = 32 ∨ (Rect.block (s := S2097152x10) S8192x10.size (cc0_transform_5 i) (hinb0_5 i)).WholeWords (EltTy.packing .f32)

variable [Facts₀]

def dot_S8192x5_S32x5_S8192x32_1_1_0_0_n_n : DotDims S8192x5 S32x5 S8192x32 where
  lhsContracting := [1]
  rhsContracting := [1]
  lhsNonContracting := [0]
  rhsNonContracting := [0]
  lhsBatch := []
  rhsBatch := []
  wf := dot_S8192x5_S32x5_S8192x32_1_1_0_0_n_n_wf
def dot_S8192x32_S32x32_S8192x32_1_1_0_0_n_n : DotDims S8192x32 S32x32 S8192x32 where
  lhsContracting := [1]
  rhsContracting := [1]
  lhsNonContracting := [0]
  rhsNonContracting := [0]
  lhsBatch := []
  rhsBatch := []
  wf := dot_S8192x32_S32x32_S8192x32_1_1_0_0_n_n_wf
def dot_S8192x32_S16x32_S8192x16_1_1_0_0_n_n : DotDims S8192x32 S16x32 S8192x16 where
  lhsContracting := [1]
  rhsContracting := [1]
  lhsNonContracting := [0]
  rhsNonContracting := [0]
  lhsBatch := []
  rhsBatch := []
  wf := dot_S8192x32_S16x32_S8192x16_1_1_0_0_n_n_wf
def dot_S8192x16_S10x16_S8192x10_1_1_0_0_n_n : DotDims S8192x16 S10x16 S8192x10 where
  lhsContracting := [1]
  rhsContracting := [1]
  lhsNonContracting := [0]
  rhsNonContracting := [0]
  lhsBatch := []
  rhsBatch := []
  wf := dot_S8192x16_S10x16_S8192x10_1_1_0_0_n_n_wf

abbrev win0_0 : Pipeline.Window sig grid0 :=
  Pipeline.Window.ofSpec (Memref.whole main_arg0) S8192x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8192x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x5 : Shape := ⟨2, ![2097152, 5]⟩
abbrev S32x5 : Shape := ⟨2, ![32, 5]⟩
abbrev S32x32 : Shape := ⟨2, ![32, 32]⟩
abbrev S16x32 : Shape := ⟨2, ![16, 32]⟩
abbrev S10x16 : Shape := ⟨2, ![10, 16]⟩
abbrev S5x32 : Shape := ⟨2, ![5, 32]⟩
abbrev S2097152x32 : Shape := ⟨2, ![2097152, 32]⟩
abbrev S_ : Shape := ⟨0, ![]⟩
abbrev S32x16 : Shape := ⟨2, ![32, 16]⟩
abbrev S2097152x16 : Shape := ⟨2, ![2097152, 16]⟩
abbrev S16x10 : Shape := ⟨2, ![16, 10]⟩
abbrev S2097152x10 : Shape := ⟨2, ![2097152, 10]⟩

abbrev nBuf : Space → Nat
  | .hbm => 41
  | .vmem => 0
  | .smem => 0
  | _ => 0

abbrev bufTy : (tb : Table) → Fin (tcTables nBuf tb) → BufTy
  | .hbm, ⟨0, _⟩ => ⟨S2097152x5, .f32⟩
  | .hbm, ⟨1, _⟩ => ⟨S32x5, .f32⟩
  | .hbm, ⟨2, _⟩ => ⟨S32x32, .f32⟩
  | .hbm, ⟨3, _⟩ => ⟨S16x32, .f32⟩
  | .hbm, ⟨4, _⟩ => ⟨S10x16, .f32⟩
  | .hbm, ⟨5, _⟩ => ⟨S5x32, .f32⟩
  | .hbm, ⟨6, _⟩ => ⟨S2097152x32, .f32⟩
  | .hbm, ⟨7, _⟩ => ⟨S_, .f32⟩
  | .hbm, ⟨8, _⟩ => ⟨S2097152x32, .f32⟩
  | .hbm, ⟨9, _⟩ => ⟨S2097152x32, .f32⟩
  | .hbm, ⟨10, _⟩ => ⟨S_, .f32⟩
  | .hbm, ⟨11, _⟩ => ⟨S2097152x32, .f32⟩
  | .hbm, ⟨12, _⟩ => ⟨S2097152x32, .i1⟩
  | .hbm, ⟨13, _⟩ => ⟨S2097152x32, .f32⟩
  | .hbm, ⟨14, _⟩ => ⟨S32x32, .f32⟩
  | .hbm, ⟨15, _⟩ => ⟨S2097152x32, .f32⟩
  | .hbm, ⟨16, _⟩ => ⟨S_, .f32⟩
  | .hbm, ⟨17, _⟩ => ⟨S2097152x32, .f32⟩
  | .hbm, ⟨18, _⟩ => ⟨S2097152x32, .f32⟩
  | .hbm, ⟨19, _⟩ => ⟨S_, .f32⟩
  | .hbm, ⟨20, _⟩ => ⟨S2097152x32, .f32⟩
  | .hbm, ⟨21, _⟩ => ⟨S2097152x32, .i1⟩
  | .hbm, ⟨22, _⟩ => ⟨S2097152x32, .f32⟩
  | .hbm, ⟨23, _⟩ => ⟨S32x16, .f32⟩
  | .hbm, ⟨24, _⟩ => ⟨S2097152x16, .f32⟩
  | .hbm, ⟨25, _⟩ => ⟨S_, .f32⟩
  | .hbm, ⟨26, _⟩ => ⟨S2097152x16, .f32⟩
  | .hbm, ⟨27, _⟩ => ⟨S2097152x16, .f32⟩
  | .hbm, ⟨28, _⟩ => ⟨S_, .f32⟩
  | .hbm, ⟨29, _⟩ => ⟨S2097152x16, .f32⟩
  | .hbm, ⟨30, _⟩ => ⟨S2097152x16, .i1⟩
  | .hbm, ⟨31, _⟩ => ⟨S2097152x16, .f32⟩
  | .hbm, ⟨32, _⟩ => ⟨S16x10, .f32⟩
  | .hbm, ⟨33, _⟩ => ⟨S2097152x10, .f32⟩
  | .hbm, ⟨34, _⟩ => ⟨S_, .f32⟩
  | .hbm, ⟨35, _⟩ => ⟨S2097152x10, .f32⟩
  | .hbm, ⟨36, _⟩ => ⟨S2097152x10, .f32⟩
  | .hbm, ⟨37, _⟩ => ⟨S_, .f32⟩
  | .hbm, ⟨38, _⟩ => ⟨S2097152x10, .f32⟩
  | .hbm, ⟨39, _⟩ => ⟨S2097152x10, .i1⟩
  | .hbm, ⟨40, _⟩ => ⟨S2097152x10, .f32⟩
  | _, _ => ⟨S2097152x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  transposes_S32x5_S5x32_1_0 : S32x5.Transposes [1, 0] S5x32
  bcast_S_S2097152x32 : S_.BroadcastsInDim S2097152x32 (![] : Fin 0 → Fin S2097152x32.rank)
  transposes_S32x32_S32x32_1_0 : S32x32.Transposes [1, 0] S32x32
  transposes_S16x32_S32x16_1_0 : S16x32.Transposes [1, 0] S32x16
  bcast_S_S2097152x16 : S_.BroadcastsInDim S2097152x16 (![] : Fin 0 → Fin S2097152x16.rank)
  transposes_S10x16_S16x10_1_0 : S10x16.Transposes [1, 0] S16x10
  bcast_S_S2097152x10 : S_.BroadcastsInDim S2097152x10 (![] : Fin 0 → Fin S2097152x10.rank)
  dot_S2097152x5_S5x32_S2097152x32_1_0_0_1_n_n_wf : DotDims.WF S2097152x5 S5x32 S2097152x32 [1] [0] [0] [1] [] []
  dot_S2097152x32_S32x32_S2097152x32_1_0_0_1_n_n_wf : DotDims.WF S2097152x32 S32x32 S2097152x32 [1] [0] [0] [1] [] []
  dot_S2097152x32_S32x16_S2097152x16_1_0_0_1_n_n_wf : DotDims.WF S2097152x32 S32x16 S2097152x16 [1] [0] [0] [1] [] []
  dot_S2097152x16_S16x10_S2097152x10_1_0_0_1_n_n_wf : DotDims.WF S2097152x16 S16x10 S2097152x10 [1] [0] [0] [1] [] []

variable [Facts₀]

def dot_S2097152x5_S5x32_S2097152x32_1_0_0_1_n_n : DotDims S2097152x5 S5x32 S2097152x32 where
  lhsContracting := [1]
  rhsContracting := [0]
  lhsNonContracting := [0]
  rhsNonContracting := [1]
  lhsBatch := []
  rhsBatch := []
  wf := dot_S2097152x5_S5x32_S2097152x32_1_0_0_1_n_n_wf
def dot_S2097152x32_S32x32_S2097152x32_1_0_0_1_n_n : DotDims S2097152x32 S32x32 S2097152x32 where
  lhsContracting := [1]
  rhsContracting := [0]
  lhsNonContracting := [0]
  rhsNonContracting := [1]
  lhsBatch := []
  rhsBatch := []
  wf := dot_S2097152x32_S32x32_S2097152x32_1_0_0_1_n_n_wf
def dot_S2097152x32_S32x16_S2097152x16_1_0_0_1_n_n : DotDims S2097152x32 S32x16 S2097152x16 where
  lhsContracting := [1]
  rhsContracting := [0]
  lhsNonContracting := [0]
  rhsNonContracting := [1]
  lhsBatch := []
  rhsBatch := []
  wf := dot_S2097152x32_S32x16_S2097152x16_1_0_0_1_n_n_wf
def dot_S2097152x16_S16x10_S2097152x10_1_0_0_1_n_n : DotDims S2097152x16 S16x10 S2097152x10 where
  lhsContracting := [1]
  rhsContracting := [0]
  lhsNonContracting := [0]
  rhsNonContracting := [1]
  lhsBatch := []
  rhsBatch := []
  wf := dot_S2097152x16_S16x10_S2097152x10_1_0_0_1_n_n_wf

class Facts : Prop extends Facts₀ where

variable [Facts]
-- ==== Proof.LibMatmulNT.lean ====
/-
  A matrix product that contracts the TRAILING axis of both operands — an M×K array against an N×K array, entry (p, n)
  of the result being the inner product of row p of the first with row n of the second — read at one output entry on
  the extended reals. Into a zero accumulator it is the plain finite sum  ∑ k, a[p, k] · w[n, k] : the contraction's
  index set is one axis of extent K, so the sum is re-indexed through that axis' coordinate, and the two operand indices
  at output (p, n) and contraction coordinate k are (p, k) and (n, k).

  General in the three extents and in the operands' float formats; nothing here speaks of a particular program.
-/
import Idealize.ShloMosaic.PureOps.Ideal.Laws
import Idealize.ShloMosaic.Lib.ValueIdx

noncomputable section

open scoped BigOperators

namespace Cert.Lib.MatmulNT

open Idealize.ShloMosaic Idealize.ShloMosaic.ValueIdx

variable {M K N : Nat}

/-- The left operand's index at output entry (p, n) and contraction coordinate k is (p, k). -/
theorem lhsIdx_eq (p : Fin M) (n : Fin N) (k : Fin K) :
    (DotDims.transposedRhs M K N).lhsIdx (ix2 p n) ((contrEquiv1 (DotDims.transposedRhs M K N) K rfl rfl).symm k) = ix2 p k := by
  have hk := contrEquiv1_symm_val (DotDims.transposedRhs M K N) K rfl rfl k
  funext ax; apply Fin.ext
  match ax with
  | ⟨0, _⟩ => simp [DotDims.lhsIdx, DotDims.transposedRhs]; rfl
  | ⟨1, _⟩ => simp [DotDims.lhsIdx, DotDims.transposedRhs]; exact hk

/-- The right operand's index at output entry (p, n) and contraction coordinate k is (n, k): its own trailing axis is
    the contracted one. -/
theorem rhsIdx_eq (p : Fin M) (n : Fin N) (k : Fin K) :
    (DotDims.transposedRhs M K N).rhsIdx (ix2 p n) ((contrEquiv1 (DotDims.transposedRhs M K N) K rfl rfl).symm k) = ix2 n k := by
  have hk := contrEquiv1_symm_val (DotDims.transposedRhs M K N) K rfl rfl k
  funext ax; apply Fin.ext
  match ax with
  | ⟨0, _⟩ => simp [DotDims.rhsIdx, DotDims.transposedRhs]; rfl
  | ⟨1, _⟩ => simp [DotDims.rhsIdx, DotDims.transposedRhs]; exact hk

/-- Entry (p, n) of the product into the zero accumulator is the sum over k of a[p, k] · w[n, k]. -/
theorem matmul_zero_apply {φ₁ φ₂ : FTy} (prec : Option ContractPrecision)
    (a : FVec Ideal ⟨2, ![M, K]⟩ φ₁) (w : FVec Ideal ⟨2, ![N, K]⟩ φ₂) (p : Fin M) (n : Fin N) :
    FloatOps.matmul (DotDims.transposedRhs M K N) prec a w (constant (F := Ideal) ⟨2, ![M, N]⟩ .f32 0x00000000#32) (ix2 p n)
      = ∑ k : Fin K, a (ix2 p k) * w (ix2 n k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end Cert.Lib.MatmulNT

end
-- ==== Proof.SpikeNet.lean ====
/-
  The function both programs compute, on the extended reals.

  A unit FIRES — yields 1, else 0 — when its input value v is at least 2. One program tests  2 ≤ v  directly; the other
  first divides v by 2 and tests  1 ≤ v/2. On the extended reals these are one test: dividing by the real 2 is multiplying
  by 1/2, which keeps +∞ at +∞ and −∞ at −∞ and on a real is the real half, so  1 ≤ v/2  exactly when  2 ≤ v
  (`one_le_half_iff`). The bit the test yields becomes a number either by widening it to 32 bits and reading it signed, or
  by reading the one bit unsigned: 0 or 1 both ways.

  A LAYER takes, for each row r of its input a, the inner products of a[r, ·] with the rows of its weight matrix W and
  thresholds each: out[r, n] = fire (∑ k, a[r, k] · W[n, k]). The whole function is four layers, of widths 5 → 32 → 32 →
  16 → 10; each row of the result depends on the same row of the input only.
-/
import Idealize.ShloMosaic.PureOps.Ideal.Laws
import Idealize.ShloMosaic.Lib.ValueIdx

noncomputable section

open scoped BigOperators

namespace Cert.SpikeNet

open Idealize.ShloMosaic Idealize.ShloMosaic.ValueIdx

/-! ## The two float literals -/

/-- The pattern of `2.0` denotes the real 2. -/
theorem ofBits_two : Ideal.ofBits .f32 0x40000000#32 = ((2 : ℝ) : EReal) := by
  simp [Ideal.ofBits, Ideal.ieee, -EReal.coe_mul]; norm_num

/-- The pattern of `1.0` denotes the real 1. -/
theorem ofBits_one : Ideal.ofBits .f32 0x3F800000#32 = ((1 : ℝ) : EReal) := by
  simp [Ideal.ofBits, Ideal.ieee, -EReal.coe_mul]; norm_num

/-! ## Firing -/

/-- A unit's output: 1 when its input value is at least 2, else 0. -/
def fire (v : EReal) : EReal := if ((2 : ℝ) : EReal) ≤ v then ((1 : ℝ) : EReal) else ((0 : ℝ) : EReal)

/-- Half of v is at least 1 exactly when v is at least 2 — at the two infinities as well. -/
theorem one_le_half_iff (v : EReal) : ((1 : ℝ) : EReal) ≤ Ideal.div v ((2 : ℝ) : EReal) ↔ ((2 : ℝ) : EReal) ≤ v := by
  rw [Ideal.div_coe (by norm_num : (2 : ℝ) ≠ 0)]
  induction v using EReal.rec with
  | bot =>
    rw [EReal.bot_mul_coe_of_pos (by norm_num : (0 : ℝ) < 1 / 2)]
    exact ⟨fun h => absurd h (not_le.2 (EReal.bot_lt_coe 1)), fun h => absurd h (not_le.2 (EReal.bot_lt_coe 2))⟩
  | top =>
    rw [EReal.top_mul_coe_of_pos (by norm_num : (0 : ℝ) < 1 / 2)]
    exact ⟨fun _ => le_top, fun _ => le_top⟩
  | coe r =>
    rw [← EReal.coe_mul, EReal.coe_le_coe_iff, EReal.coe_le_coe_iff]
    constructor <;> intro h <;> linarith

/-- The bit "fired", widened to 32 bits and read signed, is 1. -/
theorem toInt_widen_true : ((BitVec.ofBool true).setWidth 32).toInt = 1 := by decide
/-- The bit "did not fire", widened to 32 bits and read signed, is 0. -/
theorem toInt_widen_false : ((BitVec.ofBool false).setWidth 32).toInt = 0 := by decide
/-- The bit "fired" read unsigned is 1. -/
theorem toNat_true : (BitVec.ofBool true).toNat = 1 := by decide
/-- The bit "did not fire" read unsigned is 0. -/
theorem toNat_false : (BitVec.ofBool false).toNat = 0 := by decide

/-- The spelling that compares the value with `2.0`, widens the bit and converts it as a signed integer. -/
theorem fire_of_compare_two (v : EReal) :
    FloatOps.sitofp (F := Ideal) .f32
        ((FloatOps.cmpf (F := Ideal) (φ := .f32) .oge v (Scalar.ofBits (F := Ideal) .f32 0x40000000#32)).setWidth 32)
      = fire v := by
  show (((BitVec.setWidth 32 (Ideal.cmp .oge v (Ideal.ofBits .f32 0x40000000#32))).toInt : ℝ) : EReal) = fire v
  rw [ofBits_two]
  unfold fire
  by_cases h : ((2 : ℝ) : EReal) ≤ v
  · rw [if_pos h]
    have hb : Ideal.cmp .oge v ((2 : ℝ) : EReal) = BitVec.ofBool true := by
      show BitVec.ofBool (decide (((2 : ℝ) : EReal) ≤ v)) = _
      rw [decide_eq_true h]
    rw [hb, toInt_widen_true]; norm_num
  · rw [if_neg h]
    have hb : Ideal.cmp .oge v ((2 : ℝ) : EReal) = BitVec.ofBool false := by
      show BitVec.ofBool (decide (((2 : ℝ) : EReal) ≤ v)) = _
      rw [decide_eq_false h]
    rw [hb, toInt_widen_false]; norm_num

/-- The spelling that divides the value by `2.0`, compares with `1.0` and converts the bit as an unsigned integer. -/
theorem fire_of_halve_compare_one (v : EReal) :
    FloatOps.uitofp (F := Ideal) .f32
        (FloatOps.cmpf (F := Ideal) (φ := .f32) .oge
          (FloatOps.hostDivf (F := Ideal) (φ := .f32) v (FloatOps.ofBits (F := Ideal) .f32 0x40000000#32))
          (FloatOps.ofBits (F := Ideal) .f32 0x3F800000#32))
      = fire v := by
  show (((Ideal.cmp .oge (Ideal.div v (Ideal.ofBits .f32 0x40000000#32)) (Ideal.ofBits .f32 0x3F800000#32)).toNat : ℝ) : EReal) = fire v
  rw [ofBits_two, ofBits_one]
  unfold fire
  by_cases h : ((2 : ℝ) : EReal) ≤ v
  · rw [if_pos h]
    have hb : Ideal.cmp .oge (Ideal.div v ((2 : ℝ) : EReal)) ((1 : ℝ) : EReal) = BitVec.ofBool true := by
      show BitVec.ofBool (decide (((1 : ℝ) : EReal) ≤ Ideal.div v ((2 : ℝ) : EReal))) = _
      rw [decide_eq_true ((one_le_half_iff v).2 h)]
    rw [hb, toNat_true]; norm_num
  · rw [if_neg h]
    have hb : Ideal.cmp .oge (Ideal.div v ((2 : ℝ) : EReal)) ((1 : ℝ) : EReal) = BitVec.ofBool false := by
      show BitVec.ofBool (decide (((1 : ℝ) : EReal) ≤ Ideal.div v ((2 : ℝ) : EReal))) = _
      rw [decide_eq_false (fun h' => h ((one_le_half_iff v).1 h'))]
    rw [hb, toNat_false]; norm_num

/-! ## Layers and their composition -/

/-- One layer: row r of the input against every row n of the weights, each inner product thresholded. -/
def layer {R : Type} {K N : Nat} (a : R → Fin K → EReal) (W : Fin N → Fin K → EReal) : R → Fin N → EReal :=
  fun r n => fire (∑ k : Fin K, a r k * W n k)

/-- The four layers, 5 → 32 → 32 → 16 → 10. -/
def net {R : Type} (x : R → Fin 5 → EReal) (W1 : Fin 32 → Fin 5 → EReal) (W2 : Fin 32 → Fin 32 → EReal)
    (W3 : Fin 16 → Fin 32 → EReal) (W4 : Fin 10 → Fin 16 → EReal) : R → Fin 10 → EReal :=
  layer (layer (layer (layer x W1) W2) W3) W4

/-- The four layers act row by row: on a re-indexed family of rows they give the family's result, re-indexed. -/
theorem net_reindex {R R' : Type} (f : R' → R) (x : R → Fin 5 → EReal) (W1 : Fin 32 → Fin 5 → EReal)
    (W2 : Fin 32 → Fin 32 → EReal) (W3 : Fin 16 → Fin 32 → EReal) (W4 : Fin 10 → Fin 16 → EReal) (r : R') :
    net (fun r' => x (f r')) W1 W2 W3 W4 r = net x W1 W2 W3 W4 (f r) := rfl

/-- A rank-2 array as a family of rows. -/
def rows {A B : Nat} (x : (⟨2, ![A, B]⟩ : Shape).Idx → EReal) : Fin A → Fin B → EReal := fun r k => x (ix2 r k)

/-- A family of rows as a rank-2 array. -/
def arr {A B : Nat} (f : Fin A → Fin B → EReal) : (⟨2, ![A, B]⟩ : Shape).Idx → EReal := fun j => f (j 0) (j 1)

theorem rows_arr {A B : Nat} (f : Fin A → Fin B → EReal) : rows (arr f) = f := rfl

theorem arr_ix2 {A B : Nat} (f : Fin A → Fin B → EReal) (r : Fin A) (k : Fin B) : arr f (ix2 r k) = f r k := rfl

/-- The result array of the four layers on an input of B rows. -/
def out {B : Nat} (x : (⟨2, ![B, 5]⟩ : Shape).Idx → EReal) (W1 : (⟨2, ![32, 5]⟩ : Shape).Idx → EReal)
    (W2 : (⟨2, ![32, 32]⟩ : Shape).Idx → EReal) (W3 : (⟨2, ![16, 32]⟩ : Shape).Idx → EReal)
    (W4 : (⟨2, ![10, 16]⟩ : Shape).Idx → EReal) : (⟨2, ![B, 10]⟩ : Shape).Idx → EReal :=
  arr (net (rows x) (rows W1) (rows W2) (rows W3) (rows W4))

/-- The result on a block of rows is that block of the result: when row p of `xb` is row `f p` of `X` and the weight arrays
    agree entry by entry, entry (p, q) of the four layers of `xb` is entry (f p, q) of the four layers of `X`. -/
theorem out_of_block {B b : Nat} (f : Fin b → Fin B)
    (X : (⟨2, ![B, 5]⟩ : Shape).Idx → EReal) (xb : (⟨2, ![b, 5]⟩ : Shape).Idx → EReal)
    (W1 W1' : (⟨2, ![32, 5]⟩ : Shape).Idx → EReal) (W2 W2' : (⟨2, ![32, 32]⟩ : Shape).Idx → EReal)
    (W3 W3' : (⟨2, ![16, 32]⟩ : Shape).Idx → EReal) (W4 W4' : (⟨2, ![10, 16]⟩ : Shape).Idx → EReal)
    (hx : ∀ p k, xb (ix2 p k) = X (ix2 (f p) k)) (h1 : ∀ n k, W1' (ix2 n k) = W1 (ix2 n k))
    (h2 : ∀ n k, W2' (ix2 n k) = W2 (ix2 n k)) (h3 : ∀ n k, W3' (ix2 n k) = W3 (ix2 n k))
    (h4 : ∀ n k, W4' (ix2 n k) = W4 (ix2 n k)) (p : Fin b) (q : Fin 10) :
    out xb W1' W2' W3' W4' (ix2 p q) = out X W1 W2 W3 W4 (ix2 (f p) q) := by
  have e0 : rows xb = fun p => rows X (f p) := funext fun p => funext fun k => hx p k
  have e1 : rows W1' = rows W1 := funext fun n => funext fun k => h1 n k
  have e2 : rows W2' = rows W2 := funext fun n => funext fun k => h2 n k
  have e3 : rows W3' = rows W3 := funext fun n => funext fun k => h3 n k
  have e4 : rows W4' = rows W4 := funext fun n => funext fun k => h4 n k
  show net (rows xb) (rows W1') (rows W2') (rows W3') (rows W4') p q
    = net (rows X) (rows W1) (rows W2) (rows W3) (rows W4) (f p) q
  rw [e0, e1, e2, e3, e4]
  rfl

end Cert.SpikeNet

end
-- ==== Proof.KernelLayers.lean ====
/-
  What the kernel's body stores, entry by entry: the four layers of Proof/SpikeNet.lean applied to the block of input
  rows the body loaded, with the four weight arrays it loaded whole.

  Each layer of the body is a product contracting the trailing axes of its two operands into a zero accumulator
  (Proof/LibMatmulNT.lean: entry (p, n) is ∑ k, a[p, k] · w[n, k]), compared entry by entry with the splat of `2.0`, the bit
  widened and converted: `fire` of that sum (`fire_of_compare_two`). Read as families of rows, the body's four nested layers
  are `net` of the loaded blocks.
-/
import proofs.«182093_j33784212750539_2_alg».proof.Proof.Gen.KernelIdeal.Skeleton
import proofs.«182093_j33784212750539_2_alg».proof.Proof.LibMatmulNT
import proofs.«182093_j33784212750539_2_alg».proof.Proof.SpikeNet

noncomputable section

open scoped BigOperators

namespace Cert.KernelIdeal.Layers

open Cert.KernelIdeal Cert.KernelIdeal.Gen Idealize.ShloMosaic Idealize.ShloMosaic.ValueIdx Cert.SpikeNet

/-- One layer as the body spells it — product into zero, compare with the splat of `2.0`, widen, convert — is, as an array,
    the layer of the operands' rows. -/
theorem body_layer {M K N : Nat} (d : DotDims ⟨2, ![M, K]⟩ ⟨2, ![N, K]⟩ ⟨2, ![M, N]⟩) (hd : d = DotDims.transposedRhs M K N)
    (h : 1 < 32) (a : FVec Ideal ⟨2, ![M, K]⟩ .f32) (w : FVec Ideal ⟨2, ![N, K]⟩ .f32) :
    (sitofp .f32 (extui 32 (cmpf .oge (matmul d (some .fp32) a w (constant (F := Ideal) ⟨2, ![M, N]⟩ .f32 0x00000000#32))
        (broadcast ⟨2, ![M, N]⟩ (Scalar.ofBits (F := Ideal) .f32 0x40000000#32))) h) : FVec Ideal ⟨2, ![M, N]⟩ .f32)
      = arr (layer (rows a) (rows w)) := by
  subst hd
  funext j
  obtain ⟨p, n, rfl⟩ : ∃ (p : Fin M) (n : Fin N), j = ix2 p n := ⟨j 0, j 1, eq_ix2 j⟩
  show FloatOps.sitofp (F := Ideal) .f32 ((FloatOps.cmpf (F := Ideal) (φ := .f32) .oge
      (FloatOps.matmul (DotDims.transposedRhs M K N) (some .fp32) a w (constant (F := Ideal) ⟨2, ![M, N]⟩ .f32 0x00000000#32) (ix2 p n))
      (Scalar.ofBits (F := Ideal) .f32 0x40000000#32)).setWidth 32) = fire (∑ k : Fin K, a (ix2 p k) * w (ix2 n k))
  rw [Cert.Lib.MatmulNT.matmul_zero_apply]
  exact fire_of_compare_two _

/-- The body's stored value is the four layers of the loaded blocks. -/
theorem payload_eq (x0 : Vec Ideal S8192x5 .f32) (x1 : Vec Ideal S32x5 .f32) (x2 : Vec Ideal S32x32 .f32)
    (x3 : Vec Ideal S16x32 .f32) (x4 : Vec Ideal S10x16 .f32) :
    k0_pay1 (F := Ideal) x0 x1 x2 x3 x4 = out (B := 8192) x0 x1 x2 x3 x4 := by
  unfold k0_pay1
  dsimp only
  rw [body_layer (M := 8192) (K := 5) (N := 32) dot_S8192x5_S32x5_S8192x32_1_1_0_0_n_n rfl natLt_1_32 x0 x1,
    body_layer (M := 8192) (K := 32) (N := 32) dot_S8192x32_S32x32_S8192x32_1_1_0_0_n_n rfl natLt_1_32 _ x2,
    body_layer (M := 8192) (K := 32) (N := 16) dot_S8192x32_S16x32_S8192x16_1_1_0_0_n_n rfl natLt_1_32 _ x3,
    body_layer (M := 8192) (K := 16) (N := 10) dot_S8192x16_S10x16_S8192x10_1_1_0_0_n_n rfl natLt_1_32 _ x4]
  rfl

end Cert.KernelIdeal.Layers

end
-- ==== Proof.KernelValue.lean ====
/-
  From blocks to the whole array. The grid has 256 points; point t loads rows t·8192 … t·8192 + 8191 of the input (all 5
  columns), loads each of the four weight arrays whole, and writes back rows t·8192 … t·8192 + 8191 of the result (all 10
  columns). By Proof/KernelLayers.lean what it writes is the four layers of the rows it loaded; the four layers act row
  by row (Proof/SpikeNet.lean `out_of_block`), so that is block t of the four layers of the WHOLE input. Row r of the
  result lies in block r / 8192, so the blocks cover the array, and after the run the result array is `out` of the five
  argument arrays.
-/
import proofs.«182093_j33784212750539_2_alg».proof.Proof.Gen.KernelIdeal.Value
import proofs.«182093_j33784212750539_2_alg».proof.Proof.KernelLayers

noncomputable section

namespace Cert.KernelIdeal.Whole

open Cert.KernelIdeal Cert.KernelIdeal.Gen Idealize.ShloMosaic Idealize.ShloMosaic.TcCoe Idealize.SL.Sem
open Idealize.ShloMosaic.ValueIdx Cert.SpikeNet
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the 256 grid points: the input's and the result's block index is (t, 0); each weight array's is
    (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row t·8192 + p of the array. -/
def rowOf (t : Fin cfg0.N) (p : Fin 8192) : Fin 2097152 :=
  ⟨t.val * 8192 + p.val, by
    have h : t.val < 256 := lt_of_lt_of_eq t.isLt N_0
    have hp : p.val < 8192 := p.isLt
    omega⟩

/-- Entry (p, k) of the input's block at point t is entry (t·8192 + p, k) of the input. -/
theorem emb_x (t : Fin cfg0.N) (p : Fin 8192) (k : Fin 5) :
    ((cfg0.win 0).blk t).view.emb (ix2 p k) = ix2 (rowOf t p) k := by
  obtain ⟨e00, e01, -⟩ := idx_facts t
  funext a; apply Fin.ext
  match a with
  | ⟨0, _⟩ => show win0_0.index t (0 : Fin 2) * 8192 + 1 * p.val = t.val * 8192 + p.val; rw [e00]; omega
  | ⟨1, _⟩ => show win0_0.index t (1 : Fin 2) * 5 + 1 * k.val = k.val; rw [e01]; omega

theorem read_x (c : Dev nD) (t : Fin cfg0.N) (p : Fin 8192) (k : Fin 5) :
    iblk m c 0 t (ix2 p k) = V m c main_arg0 (ix2 (rowOf t p) k) := by
  show V m c main_arg0 (((cfg0.win 0).blk t).view.emb (ix2 p k)) = _
  rw [emb_x]

/-- Window 1 stages its whole array at every point: its block's entry (n, k) is the array's. -/
theorem emb_w1 (t : Fin cfg0.N) (n : Fin 32) (k : Fin 5) :
    ((cfg0.win 1).blk t).view.emb (ix2 n k) = ix2 n k := by
  obtain ⟨-, -, e10, e11, e20, e21, e30, e31, e40, e41, -, -⟩ := idx_facts t
  funext a; apply Fin.ext
  match a with
  | ⟨0, _⟩ => show win0_1.index t (0 : Fin 2) * 32 + 1 * n.val = n.val; rw [e10]; omega
  | ⟨1, _⟩ => show win0_1.index t (1 : Fin 2) * 5 + 1 * k.val = k.val; rw [e11]; omega

theorem read_w1 (c : Dev nD) (t : Fin cfg0.N) (n : Fin 32) (k : Fin 5) :
    iblk m c 1 t (ix2 n k) = V m c main_arg1 (ix2 n k) := by
  show V m c main_arg1 (((cfg0.win 1).blk t).view.emb (ix2 n k)) = _
  rw [emb_w1]

/-- Window 2 stages its whole array at every point: its block's entry (n, k) is the array's. -/
theorem emb_w2 (t : Fin cfg0.N) (n : Fin 32) (k : Fin 32) :
    ((cfg0.win 2).blk t).view.emb (ix2 n k) = ix2 n k := by
  obtain ⟨-, -, e10, e11, e20, e21, e30, e31, e40, e41, -, -⟩ := idx_facts t
  funext a; apply Fin.ext
  match a with
  | ⟨0, _⟩ => show win0_2.index t (0 : Fin 2) * 32 + 1 * n.val = n.val; rw [e20]; omega
  | ⟨1, _⟩ => show win0_2.index t (1 : Fin 2) * 32 + 1 * k.val = k.val; rw [e21]; omega

theorem read_w2 (c : Dev nD) (t : Fin cfg0.N) (n : Fin 32) (k : Fin 32) :
    iblk m c 2 t (ix2 n k) = V m c main_arg2 (ix2 n k) := by
  show V m c main_arg2 (((cfg0.win 2).blk t).view.emb (ix2 n k)) = _
  rw [emb_w2]

/-- Window 3 stages its whole array at every point: its block's entry (n, k) is the array's. -/
theorem emb_w3 (t : Fin cfg0.N) (n : Fin 16) (k : Fin 32) :
    ((cfg0.win 3).blk t).view.emb (ix2 n k) = ix2 n k := by
  obtain ⟨-, -, e10, e11, e20, e21, e30, e31, e40, e41, -, -⟩ := idx_facts t
  funext a; apply Fin.ext
  match a with
  | ⟨0, _⟩ => show win0_3.index t (0 : Fin 2) * 16 + 1 * n.val = n.val; rw [e30]; omega
  | ⟨1, _⟩ => show win0_3.index t (1 : Fin 2) * 32 + 1 * k.val = k.val; rw [e31]; omega

theorem read_w3 (c : Dev nD) (t : Fin cfg0.N) (n : Fin 16) (k : Fin 32) :
    iblk m c 3 t (ix2 n k) = V m c main_arg3 (ix2 n k) := by
  show V m c main_arg3 (((cfg0.win 3).blk t).view.emb (ix2 n k)) = _
  rw [emb_w3]

/-- Window 4 stages its whole array at every point: its block's entry (n, k) is the array's. -/
theorem emb_w4 (t : Fin cfg0.N) (n : Fin 10) (k : Fin 16) :
    ((cfg0.win 4).blk t).view.emb (ix2 n k) = ix2 n k := by
  obtain ⟨-, -, e10, e11, e20, e21, e30, e31, e40, e41, -, -⟩ := idx_facts t
  funext a; apply Fin.ext
  match a with
  | ⟨0, _⟩ => show win0_4.index t (0 : Fin 2) * 10 + 1 * n.val = n.val; rw [e40]; omega
  | ⟨1, _⟩ => show win0_4.index t (1 : Fin 2) * 16 + 1 * k.val = k.val; rw [e41]; omega

theorem read_w4 (c : Dev nD) (t : Fin cfg0.N) (n : Fin 10) (k : Fin 16) :
    iblk m c 4 t (ix2 n k) = V m c main_arg4 (ix2 n k) := by
  show V m c main_arg4 (((cfg0.win 4).blk t).view.emb (ix2 n k)) = _
  rw [emb_w4]

/-- Entry (p, q) of the result's block at point t is entry (t·8192 + p, q) of the result. -/
theorem emb_out (t : Fin cfg0.N) (p : Fin 8192) (q : Fin 10) :
    ((cfg0.win 5).blk t).view.emb (ix2 p q) = ix2 (rowOf t p) q := by
  obtain ⟨-, -, -, -, -, -, -, -, -, -, e50, e51⟩ := idx_facts t
  funext a; apply Fin.ext
  match a with
  | ⟨0, _⟩ => show win0_5.index t (0 : Fin 2) * 8192 + 1 * p.val = t.val * 8192 + p.val; rw [e50]; omega
  | ⟨1, _⟩ => show win0_5.index t (1 : Fin 2) * 10 + 1 * q.val = q.val; rw [e51]; omega

/-- The four layers of the blocks point t loaded, at an entry of its output block, are the four layers of the whole
    arguments at that entry's place in the result array. -/
theorem block_entry (c : Dev nD) (t : Fin cfg0.N) (j : S8192x10.Idx) :
    out (B := 8192) (iblk m c 0 t) (iblk m c 1 t) (iblk m c 2 t) (iblk m c 3 t) (iblk m c 4 t) j
      = out (B := 2097152) (V m c main_arg0) (V m c main_arg1) (V m c main_arg2) (V m c main_arg3) (V m c main_arg4) (((cfg0.win 5).blk t).view.emb j) := by
  obtain ⟨p, q, rfl⟩ : ∃ (p : Fin 8192) (q : Fin 10), j = ix2 p q := ⟨j 0, j 1, eq_ix2 j⟩
  rw [emb_out]
  exact out_of_block (rowOf t) (V m c main_arg0) (iblk m c 0 t) (V m c main_arg1) (iblk m c 1 t) (V m c main_arg2) (iblk m c 2 t) (V m c main_arg3) (iblk m c 3 t) (V m c main_arg4) (iblk m c 4 t)
    (read_x m c t) (read_w1 m c t) (read_w2 m c t) (read_w3 m c t) (read_w4 m c t) p q

/-- What point t writes back is block t of the four layers of the argument arrays. -/
theorem flushed_eq (c : Dev nD) (t : Fin cfg0.N) :
    (dats m 0 c).flushed 5 t
      = ((cfg0.win 5).blk t).view.read (Elt Ideal) (out (B := 2097152) (V m c main_arg0) (V m c main_arg1) (V m c main_arg2) (V m c main_arg3) (V m c main_arg4)) := by
  show (cfg0.win 5).cut (grid0.coords t) ((dats m 0 c).after 5 t) = _
  rw [after0_5]
  unfold out0_5
  rw [View.canon_unit_zero hz]
  simp only [View.ld_unit_zero (S := S8192x5) hz, View.ld_unit_zero (S := S32x5) hz, View.ld_unit_zero (S := S32x32) hz,
    View.ld_unit_zero (S := S16x32) hz, View.ld_unit_zero (S := S10x16) hz]
  rw [Layers.payload_eq]
  funext j
  exact block_entry m c t j

/-- An index of the result array is in point t's block iff each coordinate is in the block's range on its axis. -/
theorem mem_blk (t : Fin cfg0.N) (i : S2097152x10.Idx) :
    i ∈ ((cfg0.win 5).blk t).view.set ↔ ∀ a : Fin 2, win0_5.index t a * S8192x10.size a ≤ (i a).val ∧ (i a).val < win0_5.index t a * S8192x10.size a + S8192x10.size a := by
  show i ∈ ((View.whole main_v0).slice (win0_5.rect t)).set ↔ _
  rw [View.set_slice_whole, Rect.mem_set_unit]
  exact Iff.rfl

/-- Every index of the result array is in the block of the point its row falls to, row / 8192. -/
theorem cover (i : S2097152x10.Idx) :
    ∃ t : Fin cfg0.N, (cfg0.win 5).flush t = true ∧ i ∈ ((cfg0.win 5).blk t).view.set := by
  have hi0 : (i 0).val < 2097152 := (i 0).isLt
  have hi1 : (i 1).val < 10 := (i 1).isLt
  obtain ⟨t, ht⟩ : ∃ t : Fin cfg0.N, t.val = (i 0).val / 8192 :=
    ⟨⟨(i 0).val / 8192, lt_of_lt_of_eq (by omega : (i 0).val / 8192 < 256) N_0.symm⟩, rfl⟩
  refine ⟨t, flush0_5 t, ?_⟩
  rw [mem_blk]
  obtain ⟨-, -, -, -, -, -, -, -, -, -, e50, e51⟩ := idx_facts t
  intro a
  match a with
  | ⟨0, _⟩ =>
    show win0_5.index t (0 : Fin 2) * 8192 ≤ (i 0).val ∧ (i 0).val < win0_5.index t (0 : Fin 2) * 8192 + 8192
    rw [e50, ht]; omega
  | ⟨1, _⟩ =>
    show win0_5.index t (1 : Fin 2) * 10 ≤ (i 1).val ∧ (i 1).val < win0_5.index t (1 : Fin 2) * 10 + 10
    rw [e51]; omega

/-- The result array after the run: the four layers of the argument arrays as launched. -/
theorem final (c : Dev nD) :
    (dats m 0 c).arrAt 5 cfg0.N
      = out (B := 2097152) (m ((c : Thread nD τ).loc main_arg0)) (m ((c : Thread nD τ).loc main_arg1))
          (m ((c : Thread nD τ).loc main_arg2)) (m ((c : Thread nD τ).loc main_arg3)) (m ((c : Thread nD τ).loc main_arg4)) :=
  (dats m 0 c).arrAt_eq_of_cover 5 _ (fun t _ => flushed_eq m c t) cover

/-- Every weakly fair execution terminates with the result array at the four layers of the arguments, the arguments
    unchanged. -/
theorem run : θ_run defs (onTc (τ := τ) (main (F := Ideal))) ⟨m, fun _ => 0, ρ⟩ fun r => ∀ c : Dev nD,
      r.2.mem ((c : Thread nD τ).loc main_v0)
        = out (B := 2097152) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefLayers.lean ====
/-
  What the reference computes, stage by stage: each of its four stages — transpose the weight array, multiply, divide by
  `2.0`, compare with `1.0`, convert the bit — is, as an array, one layer of Proof/SpikeNet.lean applied to the rows of the
  stage's input and the rows of the (untransposed) weight array; the transposed weights read at (k, n) are the weights at
  (n, k), so the product's entry (r, n) is ∑ k, a[r, k] · W[n, k]. Composed, the four stages are `out` of the five arguments.
-/
import proofs.«182093_j33784212750539_2_alg».proof.Proof.Gen.ReferenceIdeal.Read
import proofs.«182093_j33784212750539_2_alg».proof.Proof.SpikeNet

noncomputable section

open scoped BigOperators

namespace Cert.ReferenceIdeal.Layers

open Cert.ReferenceIdeal Cert.ReferenceIdeal.Gen Cert.ReferenceIdeal.Read Idealize.ShloMosaic Idealize.ShloMosaic.ValueIdx Cert.SpikeNet

/-- The first stage is the layer of the input's rows against the first weight array's rows. -/
theorem stage1 (x0 : (⟨S2097152x5, .f32⟩ : BufTy).Contents (Elt Ideal)) (x1 : (⟨S32x5, .f32⟩ : BufTy).Contents (Elt Ideal)) :
    val_main_v6 (F := Ideal) x0 x1 = arr (layer (rows x0) (rows x1)) := by
  funext i
  obtain ⟨r, n, rfl⟩ : ∃ (r : Fin 2097152) (n : Fin 32), i = ix2 r n := ⟨i 0, i 1, eq_ix2 i⟩
  rw [val_main_v6_apply, val_main_v5_apply, val_main_v3_apply, val_main_v4_apply, val_main_cst_0_apply, val_main_v2_apply, val_main_cst_apply, val_main_v1_apply]
  have hs : (∑ k : Fin 5, x0 (lidx_main_v1 (ix2 r n) k) * val_main_v0 (F := Ideal) x1 (ridx_main_v1 (ix2 r n) k))
      = ∑ k : Fin 5, rows x0 r k * rows x1 n k :=
    Finset.sum_congr rfl fun k _ => by
      rw [val_main_v0_apply]
      have el : lidx_main_v1 (ix2 r n) k = ix2 r k :=
        funext fun a => Fin.ext (by match a with | ⟨0, _⟩ => rfl | ⟨1, _⟩ => rfl)
      have er : idx_main_v0 (ridx_main_v1 (ix2 r n) k) = ix2 n k :=
        funext fun a => Fin.ext (by match a with | ⟨0, _⟩ => rfl | ⟨1, _⟩ => rfl)
      rw [el, er]
      rfl
  rw [hs]
  exact fire_of_halve_compare_one _

/-- The second stage is the layer of the first stage's rows against the second weight array's rows. -/
theorem stage2 (x0 : (⟨S2097152x5, .f32⟩ : BufTy).Contents (Elt Ideal)) (x1 : (⟨S32x5, .f32⟩ : BufTy).Contents (Elt Ideal)) (x2 : (⟨S32x32, .f32⟩ : BufTy).Contents (Elt Ideal)) :
    val_main_v13 (F := Ideal) x0 x1 x2 = arr (layer (rows (val_main_v6 (F := Ideal) x0 x1)) (rows x2)) := by
  funext i
  obtain ⟨r, n, rfl⟩ : ∃ (r : Fin 2097152) (n : Fin 32), i = ix2 r n := ⟨i 0, i 1, eq_ix2 i⟩
  rw [val_main_v13_apply, val_main_v12_apply, val_main_v10_apply, val_main_v11_apply, val_main_cst_2_apply, val_main_v9_apply, val_main_cst_1_apply, val_main_v8_apply]
  have hs : (∑ k : Fin 32, (val_main_v6 (F := Ideal) x0 x1) (lidx_main_v8 (ix2 r n) k) * val_main_v7 (F := Ideal) x2 (ridx_main_v8 (ix2 r n) k))
      = ∑ k : Fin 32, rows (val_main_v6 (F := Ideal) x0 x1) r k * rows x2 n k :=
    Finset.sum_congr rfl fun k _ => by
      rw [val_main_v7_apply]
      have el : lidx_main_v8 (ix2 r n) k = ix2 r k :=
        funext fun a => Fin.ext (by match a with | ⟨0, _⟩ => rfl | ⟨1, _⟩ => rfl)
      have er : idx_main_v7 (ridx_main_v8 (ix2 r n) k) = ix2 n k :=
        funext fun a => Fin.ext (by match a with | ⟨0, _⟩ => rfl | ⟨1, _⟩ => rfl)
      rw [el, er]
      rfl
  rw [hs]
  exact fire_of_halve_compare_one _

/-- The third stage is the layer of the second stage's rows against the third weight array's rows. -/
theorem stage3 (x0 : (⟨S2097152x5, .f32⟩ : BufTy).Contents (Elt Ideal)) (x1 : (⟨S32x5, .f32⟩ : BufTy).Contents (Elt Ideal)) (x2 : (⟨S32x32, .f32⟩ : BufTy).Contents (Elt Ideal)) (x3 : (⟨S16x32, .f32⟩ : BufTy).Contents (Elt Ideal)) :
    val_main_v20 (F := Ideal) x0 x1 x2 x3 = arr (layer (rows (val_main_v13 (F := Ideal) x0 x1 x2)) (rows x3)) := by
  funext i
  obtain ⟨r, n, rfl⟩ : ∃ (r : Fin 2097152) (n : Fin 16), i = ix2 r n := ⟨i 0, i 1, eq_ix2 i⟩
  rw [val_main_v20_apply, val_main_v19_apply, val_main_v17_apply, val_main_v18_apply, val_main_cst_4_apply, val_main_v16_apply, val_main_cst_3_apply, val_main_v15_apply]
  have hs : (∑ k : Fin 32, (val_main_v13 (F := Ideal) x0 x1 x2) (lidx_main_v15 (ix2 r n) k) * val_main_v14 (F := Ideal) x3 (ridx_main_v15 (ix2 r n) k))
      = ∑ k : Fin 32, rows (val_main_v13 (F := Ideal) x0 x1 x2) r k * rows x3 n k :=
    Finset.sum_congr rfl fun k _ => by
      rw [val_main_v14_apply]
      have el : lidx_main_v15 (ix2 r n) k = ix2 r k :=
        funext fun a => Fin.ext (by match a with | ⟨0, _⟩ => rfl | ⟨1, _⟩ => rfl)
      have er : idx_main_v14 (ridx_main_v15 (ix2 r n) k) = ix2 n k :=
        funext fun a => Fin.ext (by match a with | ⟨0, _⟩ => rfl | ⟨1, _⟩ => rfl)
      rw [el, er]
      rfl
  rw [hs]
  exact fire_of_halve_compare_one _

/-- The fourth stage is the layer of the third stage's rows against the fourth weight array's rows. -/
theorem stage4 (x0 : (⟨S2097152x5, .f32⟩ : BufTy).Contents (Elt Ideal)) (x1 : (⟨S32x5, .f32⟩ : BufTy).Contents (Elt Ideal)) (x2 : (⟨S32x32, .f32⟩ : BufTy).Contents (Elt Ideal)) (x3 : (⟨S16x32, .f32⟩ : BufTy).Contents (Elt Ideal)) (x4 : (⟨S10x16, .f32⟩ : BufTy).Contents (Elt Ideal)) :
    val_main_v27 (F := Ideal) x0 x1 x2 x3 x4 = arr (layer (rows (val_main_v20 (F := Ideal) x0 x1 x2 x3)) (rows x4)) := by
  funext i
  obtain ⟨r, n, rfl⟩ : ∃ (r : Fin 2097152) (n : Fin 10), i = ix2 r n := ⟨i 0, i 1, eq_ix2 i⟩
  rw [val_main_v27_apply, val_main_v26_apply, val_main_v24_apply, val_main_v25_apply, val_main_cst_6_apply, val_main_v23_apply, val_main_cst_5_apply, val_main_v22_apply]
  have hs : (∑ k : Fin 16, (val_main_v20 (F := Ideal) x0 x1 x2 x3) (lidx_main_v22 (ix2 r n) k) * val_main_v21 (F := Ideal) x4 (ridx_main_v22 (ix2 r n) k))
      = ∑ k : Fin 16, rows (val_main_v20 (F := Ideal) x0 x1 x2 x3) r k * rows x4 n k :=
    Finset.sum_congr rfl fun k _ => by
      rw [val_main_v21_apply]
      have el : lidx_main_v22 (ix2 r n) k = ix2 r k :=
        funext fun a => Fin.ext (by match a with | ⟨0, _⟩ => rfl | ⟨1, _⟩ => rfl)
      have er : idx_main_v21 (ridx_main_v22 (ix2 r n) k) = ix2 n k :=
        funext fun a => Fin.ext (by match a with | ⟨0, _⟩ => rfl | ⟨1, _⟩ => rfl)
      rw [el, er]
      rfl
  rw [hs]
  exact fire_of_halve_compare_one _

/-- The reference's result is the four layers of its arguments. -/
theorem result_eq (x0 : (⟨S2097152x5, .f32⟩ : BufTy).Contents (Elt Ideal)) (x1 : (⟨S32x5, .f32⟩ : BufTy).Contents (Elt Ideal)) (x2 : (⟨S32x32, .f32⟩ : BufTy).Contents (Elt Ideal)) (x3 : (⟨S16x32, .f32⟩ : BufTy).Contents (Elt Ideal)) (x4 : (⟨S10x16, .f32⟩ : BufTy).Contents (Elt Ideal)) :
    val_main_v27 (F := Ideal) x0 x1 x2 x3 x4 = out (B := 2097152) x0 x1 x2 x3 x4 := by
  rw [stage4, stage3, stage2, stage1]
  rfl

end Cert.ReferenceIdeal.Layers

end
-- ==== Proof.lean ====
/- The proof of `Cert.Claim` (proofs.«182093_j33784212750539_2_alg».proof.Defs).

   Both programs compute four layers of thresholded inner products of the rows of `x` with the rows of the weight arrays,
   of widths 5 → 32 → 32 → 16 → 10: a unit yields 1 where its inner product is at least 2, else 0 (Proof/SpikeNet.lean).
   The kernel tests  2 ≤ v ; the reference tests  1 ≤ v / 2 ; on the extended reals these agree at every v, the two
   infinities included, since dividing by the real 2 is multiplying by 1/2. The kernel contracts each weight array's
   trailing axis directly (Proof/LibMatmulNT.lean), the reference transposes it first and contracts the leading axis: both
   are ∑ k, a[r, k] · W[n, k]. No step uses that the inputs are finite.

   Proof/KernelLayers.lean reads what the kernel's body stores as the four layers of the blocks it loaded;
   Proof/KernelValue.lean carries that from the 256 blocks of 8192 rows to the whole result array; Proof/RefLayers.lean reads
   the reference's four stages as the same four layers. The three frames are the generated frame runs (the reference's is
   its run with the result dropped); the idealization rewrote nothing, so `preserves` asks nothing. -/
import proofs.«182093_j33784212750539_2_alg».proof.Defs
import proofs.«182093_j33784212750539_2_alg».proof.Proof.Gen.Kernel
import proofs.«182093_j33784212750539_2_alg».proof.Proof.Gen.Kernel.Skeleton
import proofs.«182093_j33784212750539_2_alg».proof.Proof.Gen.Kernel.Launch
import proofs.«182093_j33784212750539_2_alg».proof.Proof.Gen.Kernel.Points
import proofs.«182093_j33784212750539_2_alg».proof.Proof.Gen.Kernel.Frame
import proofs.«182093_j33784212750539_2_alg».proof.Proof.Gen.KernelIdeal
import proofs.«182093_j33784212750539_2_alg».proof.Proof.Gen.KernelIdeal.Skeleton
import proofs.«182093_j33784212750539_2_alg».proof.Proof.Gen.KernelIdeal.Launch
import proofs.«182093_j33784212750539_2_alg».proof.Proof.Gen.KernelIdeal.Points
import proofs.«182093_j33784212750539_2_alg».proof.Proof.Gen.KernelIdeal.Frame
import proofs.«182093_j33784212750539_2_alg».proof.Proof.Gen.ReferenceIdeal
import proofs.«182093_j33784212750539_2_alg».proof.Proof.Gen.Pre_finite_inputs
import proofs.«182093_j33784212750539_2_alg».proof.Proof.Gen.KernelIdeal.Value
import proofs.«182093_j33784212750539_2_alg».proof.Proof.Gen.ReferenceIdeal.Run
import proofs.«182093_j33784212750539_2_alg».proof.Proof.Gen.ReferenceIdeal.Read
import proofs.«182093_j33784212750539_2_alg».proof.Proof.KernelValue
import proofs.«182093_j33784212750539_2_alg».proof.Proof.RefLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array ends at the four layers of its arguments
    (Proof/KernelValue.lean `run`) and the reference's at the four layers of its own (Proof/RefLayers.lean `result_eq`), which
    are the same arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.Layers.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
